-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x2 : Shape := ⟨2, ![4000000, 2]⟩
abbrev S7x2 : Shape := ⟨2, ![7, 2]⟩
abbrev S8x7x7 : Shape := ⟨3, ![8, 7, 7]⟩
abbrev S1x7 : Shape := ⟨2, ![1, 7]⟩
abbrev S_ : Shape := ⟨0, ![]⟩

class Facts : Prop where
  bcast_S_S4000000x2 : S_.BroadcastsInDim S4000000x2 (![] : Fin 0 → Fin S4000000x2.rank)
  reducesTo_S4000000x2_S_d0_1 : S4000000x2.ReducesTo [0, 1] S_
  h_S_ : 0 < S_.numel
  bcast_S_S7x2 : S_.BroadcastsInDim S7x2 (![] : Fin 0 → Fin S7x2.rank)
  reducesTo_S7x2_S_d0_1 : S7x2.ReducesTo [0, 1] S_
  bcast_S_S8x7x7 : S_.BroadcastsInDim S8x7x7 (![] : Fin 0 → Fin S8x7x7.rank)
  reducesTo_S8x7x7_S_d0_1_2 : S8x7x7.ReducesTo [0, 1, 2] S_
  bcast_S_S1x7 : S_.BroadcastsInDim S1x7 (![] : Fin 0 → Fin S1x7.rank)
  reducesTo_S1x7_S_d0_1 : S1x7.ReducesTo [0, 1] S_

variable [Facts]

def fn_part1 {F : FTy → Type} [FloatOps F] (main_v13 : IVec S_ 1) (main_v16 : IVec S1x7 1) : IVec S_ 1 :=
  let main_c_5 : IVec S_ 1 := constantI S_ 1 1#1
  let main_v17 : IVec S_ 1 := (fun x v => Host.reduce IntOp.andi x v reducesTo_S1x7_S_d0_1 h_S_) main_v16 main_c_5
  let main_v18 : IVec S_ 1 := andi main_v13 main_v17
  main_v18

def fn {F : FTy → Type} [FloatOps F] (main_arg0 : FVec F S4000000x2 .f32) (main_arg1 : FVec F S7x2 .f32) (main_arg2 : FVec F S8x7x7 .f32) (main_arg3 : FVec F S1x7 .f32) : IVec S_ 1 :=
  let main_v0 : FVec F S4000000x2 .f32 := Host.absf main_arg0
  let main_cst : FVec F S_ .f32 := constant S_ .f32 0x7F800000#32
  let main_v1 : FVec F S4000000x2 .f32 := broadcastInDim S4000000x2 ![] bcast_S_S4000000x2 main_cst
  let main_v2 : IVec S4000000x2 1 := cmpf .olt main_v0 main_v1
  let main_c : IVec S_ 1 := constantI S_ 1 1#1
  let main_v3 : IVec S_ 1 := (fun x v => Host.reduce IntOp.andi x v reducesTo_S4000000x2_S_d0_1 h_S_) main_v2 main_c
  let main_v4 : FVec F S7x2 .f32 := Host.absf main_arg1
  let main_cst_0 : FVec F S_ .f32 := constant S_ .f32 0x7F800000#32
  let main_v5 : FVec F S7x2 .f32 := broadcastInDim S7x2 ![] bcast_S_S7x2 main_cst_0
  let main_v6 : IVec S7x2 1 := cmpf .olt main_v4 main_v5
  let main_c_1 : IVec S_ 1 := constantI S_ 1 1#1
  let main_v7 : IVec S_ 1 := (fun x v => Host.reduce IntOp.andi x v reducesTo_S7x2_S_d0_1 h_S_) main_v6 main_c_1
  let main_v8 : IVec S_ 1 := andi main_v3 main_v7
  let main_v9 : FVec F S8x7x7 .f32 := Host.absf main_arg2
  let main_cst_2 : FVec F S_ .f32 := constant S_ .f32 0x7F800000#32
  let main_v10 : FVec F S8x7x7 .f32 := broadcastInDim S8x7x7 ![] bcast_S_S8x7x7 main_cst_2
  let main_v11 : IVec S8x7x7 1 := cmpf .olt main_v9 main_v10
  let main_c_3 : IVec S_ 1 := constantI S_ 1 1#1
  let main_v12 : IVec S_ 1 := (fun x v => Host.reduce IntOp.andi x v reducesTo_S8x7x7_S_d0_1_2 h_S_) main_v11 main_c_3
  let main_v13 : IVec S_ 1 := andi main_v8 main_v12
  let main_v14 : FVec F S1x7 .f32 := Host.absf main_arg3
  let main_cst_4 : FVec F S_ .f32 := constant S_ .f32 0x7F800000#32
  let main_v15 : FVec F S1x7 .f32 := broadcastInDim S1x7 ![] bcast_S_S1x7 main_cst_4
  let main_v16 : IVec S1x7 1 := cmpf .olt main_v14 main_v15
  fn_part1 (F := F) main_v13 main_v16
-- ==== Kernel.lean ====
abbrev S4000000x2 : Shape := ⟨2, ![4000000, 2]⟩
abbrev S7x2 : Shape := ⟨2, ![7, 2]⟩
abbrev S8x7x7 : Shape := ⟨3, ![8, 7, 7]⟩
abbrev S1x7 : Shape := ⟨2, ![1, 7]⟩
abbrev S2x4000000 : Shape := ⟨2, ![2, 4000000]⟩
abbrev S1x4000000 : Shape := ⟨2, ![1, 4000000]⟩
abbrev S2x80000 : Shape := ⟨2, ![2, 80000]⟩
abbrev S1x80000 : Shape := ⟨2, ![1, 80000]⟩
abbrev S7x80000 : Shape := ⟨2, ![7, 80000]⟩
abbrev S1x7x7 : Shape := ⟨3, ![1, 7, 7]⟩
abbrev S7x7 : Shape := ⟨2, ![7, 7]⟩
abbrev S4000000x1 : Shape := ⟨2, ![4000000, 1]⟩

abbrev nBuf : Space → Nat
  | .hbm => 7
  | .vmem => 7
  | .smem => 0
  | _ => 0

abbrev bufTy : (tb : Table) → Fin (tcTables nBuf tb) → BufTy
  | .hbm, ⟨0, _⟩ => ⟨S4000000x2, .f32⟩
  | .hbm, ⟨1, _⟩ => ⟨S7x2, .f32⟩
  | .hbm, ⟨2, _⟩ => ⟨S8x7x7, .f32⟩
  | .hbm, ⟨3, _⟩ => ⟨S1x7, .f32⟩
  | .hbm, ⟨4, _⟩ => ⟨S2x4000000, .f32⟩
  | .hbm, ⟨5, _⟩ => ⟨S1x4000000, .f32⟩
  | .hbm, ⟨6, _⟩ => ⟨S4000000x1, .f32⟩
  | .local _ .vmem, ⟨0, _⟩ => ⟨S2x80000, .f32⟩
  | .local _ .vmem, ⟨1, _⟩ => ⟨S2x80000, .f32⟩
  | .local _ .vmem, ⟨2, _⟩ => ⟨S7x2, .f32⟩
  | .local _ .vmem, ⟨3, _⟩ => ⟨S8x7x7, .f32⟩
  | .local _ .vmem, ⟨4, _⟩ => ⟨S1x7, .f32⟩
  | .local _ .vmem, ⟨5, _⟩ => ⟨S1x80000, .f32⟩
  | .local _ .vmem, ⟨6, _⟩ => ⟨S1x80000, .f32⟩
  | _, _ => ⟨S4000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x7x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x80000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4000000x2_S2x4000000_1_0 : S4000000x2.Transposes [1, 0] S2x4000000
  inb_S2x80000_S2x80000_0_0 : ∀ a, (![0, 0] : Fin 2 → Nat) a + S2x80000.size a ≤ S2x80000.size a
  h_S2x80000 : 0 < S2x80000.numel
  shapeCasts_S2x80000_S2x80000 : S2x80000.ShapeCasts S2x80000
  bitsLt_bf16_f32 : FTy.bits .bf16 < FTy.bits .f32
  inb_S7x2_S7x2_0_0 : ∀ a, (![0, 0] : Fin 2 → Nat) a + S7x2.size a ≤ S7x2.size a
  h_S7x2 : 0 < S7x2.numel
  inb_S8x7x7_S1x7x7_0_0_0 : ∀ a, (![0, 0, 0] : Fin 3 → Nat) a + S1x7x7.size a ≤ S8x7x7.size a
  h_S1x7x7 : 0 < S1x7x7.numel
  shapeCasts_S1x7x7_S7x7 : S1x7x7.ShapeCasts S7x7
  inb_S8x7x7_S1x7x7_1_0_0 : ∀ a, (![1, 0, 0] : Fin 3 → Nat) a + S1x7x7.size a ≤ S8x7x7.size a
  inb_S8x7x7_S1x7x7_2_0_0 : ∀ a, (![2, 0, 0] : Fin 3 → Nat) a + S1x7x7.size a ≤ S8x7x7.size a
  inb_S8x7x7_S1x7x7_3_0_0 : ∀ a, (![3, 0, 0] : Fin 3 → Nat) a + S1x7x7.size a ≤ S8x7x7.size a
  inb_S8x7x7_S1x7x7_4_0_0 : ∀ a, (![4, 0, 0] : Fin 3 → Nat) a + S1x7x7.size a ≤ S8x7x7.size a
  inb_S8x7x7_S1x7x7_5_0_0 : ∀ a, (![5, 0, 0] : Fin 3 → Nat) a + S1x7x7.size a ≤ S8x7x7.size a
  inb_S8x7x7_S1x7x7_6_0_0 : ∀ a, (![6, 0, 0] : Fin 3 → Nat) a + S1x7x7.size a ≤ S8x7x7.size a
  inb_S8x7x7_S1x7x7_7_0_0 : ∀ a, (![7, 0, 0] : Fin 3 → Nat) a + S1x7x7.size a ≤ S8x7x7.size a
  inb_S1x7_S1x7_0_0 : ∀ a, (![0, 0] : Fin 2 → Nat) a + S1x7.size a ≤ S1x7.size a
  h_S1x7 : 0 < S1x7.numel
  inb_S1x80000_S1x80000_0_0 : ∀ a, (![0, 0] : Fin 2 → Nat) a + S1x80000.size a ≤ S1x80000.size a
  h_S1x80000 : 0 < S1x80000.numel
  transposes_S1x4000000_S4000000x1_1_0 : S1x4000000.Transposes [1, 0] S4000000x1
  dot_S7x2_S2x80000_S7x80000_1_0_0_1_n_n_wf : DotDims.WF S7x2 S2x80000 S7x80000 [1] [0] [0] [1] [] []
  dot_S7x7_S7x80000_S7x80000_1_0_0_1_n_n_wf : DotDims.WF S7x7 S7x80000 S7x80000 [1] [0] [0] [1] [] []
  dot_S1x7_S7x80000_S1x80000_1_0_0_1_n_n_wf : DotDims.WF S1x7 S7x80000 S1x80000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x80000.size a ≤ S2x4000000.size a
  hwx0_0 : ∀ i : grid0.Coords, EltTy.bits .f32 = 32 ∨ (Rect.block (s := S2x4000000) S2x80000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x2.size a ≤ S7x2.size a
  hwx0_1 : ∀ i : grid0.Coords, EltTy.bits .f32 = 32 ∨ (Rect.block (s := S7x2) S7x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x7x7.size a ≤ S8x7x7.size a
  hwx0_2 : ∀ i : grid0.Coords, EltTy.bits .f32 = 32 ∨ (Rect.block (s := S8x7x7) S8x7x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x80000.size a ≤ S1x4000000.size a
  hwx0_4 : ∀ i : grid0.Coords, EltTy.bits .f32 = 32 ∨ (Rect.block (s := S1x4000000) S1x80000.size (cc0_transform_4 i) (hinb0_4 i)).WholeWords (EltTy.packing .f32)

variable [Facts₀]

def dot_S7x2_S2x80000_S7x80000_1_0_0_1_n_n : DotDims S7x2 S2x80000 S7x80000 where
  lhsContracting := [1]
  rhsContracting := [0]
  lhsNonContracting := [0]
  rhsNonContracting := [1]
  lhsBatch := []
  rhsBatch := []
  wf := dot_S7x2_S2x80000_S7x80000_1_0_0_1_n_n_wf
def dot_S7x7_S7x80000_S7x80000_1_0_0_1_n_n : DotDims S7x7 S7x80000 S7x80000 where
  lhsContracting := [1]
  rhsContracting := [0]
  lhsNonContracting := [0]
  rhsNonContracting := [1]
  lhsBatch := []
  rhsBatch := []
  wf := dot_S7x7_S7x80000_S7x80000_1_0_0_1_n_n_wf
def dot_S1x7_S7x80000_S1x80000_1_0_0_1_n_n : DotDims S1x7 S7x80000 S1x80000 where
  lhsContracting := [1]
  rhsContracting := [0]
  lhsNonContracting := [0]
  rhsNonContracting := [1]
  lhsBatch := []
  rhsBatch := []
  wf := dot_S1x7_S7x80000_S1x80000_1_0_0_1_n_n_wf

abbrev win0_0 : Pipeline.Window sig grid0 :=
  Pipeline.Window.ofSpec (Memref.whole main_v0) S2x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S7x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x7x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x80000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4000000x2 : Shape := ⟨2, ![4000000, 2]⟩
abbrev S7x2 : Shape := ⟨2, ![7, 2]⟩
abbrev S8x7x7 : Shape := ⟨3, ![8, 7, 7]⟩
abbrev S1x7 : Shape := ⟨2, ![1, 7]⟩
abbrev S2x7 : Shape := ⟨2, ![2, 7]⟩
abbrev S4000000x7 : Shape := ⟨2, ![4000000, 7]⟩
abbrev S_ : Shape := ⟨0, ![]⟩
abbrev S1x7x7 : Shape := ⟨3, ![1, 7, 7]⟩
abbrev S7x7 : Shape := ⟨2, ![7, 7]⟩
abbrev S7x1 : Shape := ⟨2, ![7, 1]⟩
abbrev S4000000x1 : Shape := ⟨2, ![4000000, 1]⟩

abbrev nBuf : Space → Nat
  | .hbm => 110
  | .vmem => 0
  | .smem => 0
  | _ => 0

abbrev bufTy : (tb : Table) → Fin (tcTables nBuf tb) → BufTy
  | .hbm, ⟨0, _⟩ => ⟨S4000000x2, .f32⟩
  | .hbm, ⟨1, _⟩ => ⟨S7x2, .f32⟩
  | .hbm, ⟨2, _⟩ => ⟨S8x7x7, .f32⟩
  | .hbm, ⟨3, _⟩ => ⟨S1x7, .f32⟩
  | .hbm, ⟨4, _⟩ => ⟨S2x7, .f32⟩
  | .hbm, ⟨5, _⟩ => ⟨S4000000x7, .f32⟩
  | .hbm, ⟨6, _⟩ => ⟨S_, .f32⟩
  | .hbm, ⟨7, _⟩ => ⟨S4000000x7, .f32⟩
  | .hbm, ⟨8, _⟩ => ⟨S4000000x7, .i1⟩
  | .hbm, ⟨9, _⟩ => ⟨S_, .f32⟩
  | .hbm, ⟨10, _⟩ => ⟨S4000000x7, .f32⟩
  | .hbm, ⟨11, _⟩ => ⟨S4000000x7, .f32⟩
  | .hbm, ⟨12, _⟩ => ⟨S4000000x7, .f32⟩
  | .hbm, ⟨13, _⟩ => ⟨S1x7x7, .f32⟩
  | .hbm, ⟨14, _⟩ => ⟨S7x7, .f32⟩
  | .hbm, ⟨15, _⟩ => ⟨S7x7, .f32⟩
  | .hbm, ⟨16, _⟩ => ⟨S4000000x7, .f32⟩
  | .hbm, ⟨17, _⟩ => ⟨S_, .f32⟩
  | .hbm, ⟨18, _⟩ => ⟨S4000000x7, .f32⟩
  | .hbm, ⟨19, _⟩ => ⟨S4000000x7, .i1⟩
  | .hbm, ⟨20, _⟩ => ⟨S_, .f32⟩
  | .hbm, ⟨21, _⟩ => ⟨S4000000x7, .f32⟩
  | .hbm, ⟨22, _⟩ => ⟨S4000000x7, .f32⟩
  | .hbm, ⟨23, _⟩ => ⟨S4000000x7, .f32⟩
  | .hbm, ⟨24, _⟩ => ⟨S1x7x7, .f32⟩
  | .hbm, ⟨25, _⟩ => ⟨S7x7, .f32⟩
  | .hbm, ⟨26, _⟩ => ⟨S7x7, .f32⟩
  | .hbm, ⟨27, _⟩ => ⟨S4000000x7, .f32⟩
  | .hbm, ⟨28, _⟩ => ⟨S_, .f32⟩
  | .hbm, ⟨29, _⟩ => ⟨S4000000x7, .f32⟩
  | .hbm, ⟨30, _⟩ => ⟨S4000000x7, .i1⟩
  | .hbm, ⟨31, _⟩ => ⟨S_, .f32⟩
  | .hbm, ⟨32, _⟩ => ⟨S4000000x7, .f32⟩
  | .hbm, ⟨33, _⟩ => ⟨S4000000x7, .f32⟩
  | .hbm, ⟨34, _⟩ => ⟨S4000000x7, .f32⟩
  | .hbm, ⟨35, _⟩ => ⟨S1x7x7, .f32⟩
  | .hbm, ⟨36, _⟩ => ⟨S7x7, .f32⟩
  | .hbm, ⟨37, _⟩ => ⟨S7x7, .f32⟩
  | .hbm, ⟨38, _⟩ => ⟨S4000000x7, .f32⟩
  | .hbm, ⟨39, _⟩ => ⟨S_, .f32⟩
  | .hbm, ⟨40, _⟩ => ⟨S4000000x7, .f32⟩
  | .hbm, ⟨41, _⟩ => ⟨S4000000x7, .i1⟩
  | .hbm, ⟨42, _⟩ => ⟨S_, .f32⟩
  | .hbm, ⟨43, _⟩ => ⟨S4000000x7, .f32⟩
  | .hbm, ⟨44, _⟩ => ⟨S4000000x7, .f32⟩
  | .hbm, ⟨45, _⟩ => ⟨S4000000x7, .f32⟩
  | .hbm, ⟨46, _⟩ => ⟨S1x7x7, .f32⟩
  | .hbm, ⟨47, _⟩ => ⟨S7x7, .f32⟩
  | .hbm, ⟨48, _⟩ => ⟨S7x7, .f32⟩
  | .hbm, ⟨49, _⟩ => ⟨S4000000x7, .f32⟩
  | .hbm, ⟨50, _⟩ => ⟨S_, .f32⟩
  | .hbm, ⟨51, _⟩ => ⟨S4000000x7, .f32⟩
  | .hbm, ⟨52, _⟩ => ⟨S4000000x7, .i1⟩
  | .hbm, ⟨53, _⟩ => ⟨S_, .f32⟩
  | .hbm, ⟨54, _⟩ => ⟨S4000000x7, .f32⟩
  | .hbm, ⟨55, _⟩ => ⟨S4000000x7, .f32⟩
  | .hbm, ⟨56, _⟩ => ⟨S4000000x7, .f32⟩
  | .hbm, ⟨57, _⟩ => ⟨S1x7x7, .f32⟩
  | .hbm, ⟨58, _⟩ => ⟨S7x7, .f32⟩
  | .hbm, ⟨59, _⟩ => ⟨S7x7, .f32⟩
  | .hbm, ⟨60, _⟩ => ⟨S4000000x7, .f32⟩
  | .hbm, ⟨61, _⟩ => ⟨S_, .f32⟩
  | .hbm, ⟨62, _⟩ => ⟨S4000000x7, .f32⟩
  | .hbm, ⟨63, _⟩ => ⟨S4000000x7, .i1⟩
  | .hbm, ⟨64, _⟩ => ⟨S_, .f32⟩
  | .hbm, ⟨65, _⟩ => ⟨S4000000x7, .f32⟩
  | .hbm, ⟨66, _⟩ => ⟨S4000000x7, .f32⟩
  | .hbm, ⟨67, _⟩ => ⟨S4000000x7, .f32⟩
  | .hbm, ⟨68, _⟩ => ⟨S1x7x7, .f32⟩
  | .hbm, ⟨69, _⟩ => ⟨S7x7, .f32⟩
  | .hbm, ⟨70, _⟩ => ⟨S7x7, .f32⟩
  | .hbm, ⟨71, _⟩ => ⟨S4000000x7, .f32⟩
  | .hbm, ⟨72, _⟩ => ⟨S_, .f32⟩
  | .hbm, ⟨73, _⟩ => ⟨S4000000x7, .f32⟩
  | .hbm, ⟨74, _⟩ => ⟨S4000000x7, .i1⟩
  | .hbm, ⟨75, _⟩ => ⟨S_, .f32⟩
  | .hbm, ⟨76, _⟩ => ⟨S4000000x7, .f32⟩
  | .hbm, ⟨77, _⟩ => ⟨S4000000x7, .f32⟩
  | .hbm, ⟨78, _⟩ => ⟨S4000000x7, .f32⟩
  | .hbm, ⟨79, _⟩ => ⟨S1x7x7, .f32⟩
  | .hbm, ⟨80, _⟩ => ⟨S7x7, .f32⟩
  | .hbm, ⟨81, _⟩ => ⟨S7x7, .f32⟩
  | .hbm, ⟨82, _⟩ => ⟨S4000000x7, .f32⟩
  | .hbm, ⟨83, _⟩ => ⟨S_, .f32⟩
  | .hbm, ⟨84, _⟩ => ⟨S4000000x7, .f32⟩
  | .hbm, ⟨85, _⟩ => ⟨S4000000x7, .i1⟩
  | .hbm, ⟨86, _⟩ => ⟨S_, .f32⟩
  | .hbm, ⟨87, _⟩ => ⟨S4000000x7, .f32⟩
  | .hbm, ⟨88, _⟩ => ⟨S4000000x7, .f32⟩
  | .hbm, ⟨89, _⟩ => ⟨S4000000x7, .f32⟩
  | .hbm, ⟨90, _⟩ => ⟨S1x7x7, .f32⟩
  | .hbm, ⟨91, _⟩ => ⟨S7x7, .f32⟩
  | .hbm, ⟨92, _⟩ => ⟨S7x7, .f32⟩
  | .hbm, ⟨93, _⟩ => ⟨S4000000x7, .f32⟩
  | .hbm, ⟨94, _⟩ => ⟨S_, .f32⟩
  | .hbm, ⟨95, _⟩ => ⟨S4000000x7, .f32⟩
  | .hbm, ⟨96, _⟩ => ⟨S4000000x7, .i1⟩
  | .hbm, ⟨97, _⟩ => ⟨S_, .f32⟩
  | .hbm, ⟨98, _⟩ => ⟨S4000000x7, .f32⟩
  | .hbm, ⟨99, _⟩ => ⟨S4000000x7, .f32⟩
  | .hbm, ⟨100, _⟩ => ⟨S4000000x7, .f32⟩
  | .hbm, ⟨101, _⟩ => ⟨S7x1, .f32⟩
  | .hbm, ⟨102, _⟩ => ⟨S4000000x1, .f32⟩
  | .hbm, ⟨103, _⟩ => ⟨S_, .f32⟩
  | .hbm, ⟨104, _⟩ => ⟨S4000000x1, .f32⟩
  | .hbm, ⟨105, _⟩ => ⟨S4000000x1, .i1⟩
  | .hbm, ⟨106, _⟩ => ⟨S_, .f32⟩
  | .hbm, ⟨107, _⟩ => ⟨S4000000x1, .f32⟩
  | .hbm, ⟨108, _⟩ => ⟨S4000000x1, .f32⟩
  | .hbm, ⟨109, _⟩ => ⟨S4000000x1, .f32⟩
  | _, _ => ⟨S4000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_17 : Ref sig .tc := ⟨.hbm, 103, rfl⟩
abbrev main_v81 : Ref sig .tc := ⟨.hbm, 104, rfl⟩
abbrev main_v82 : Ref sig .tc := ⟨.hbm, 105, rfl⟩
abbrev main_cst_18 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]

class Facts₀ : Prop where
  transposes_S7x2_S2x7_1_0 : S7x2.Transposes [1, 0] S2x7
  bcast_S_S4000000x7 : S_.BroadcastsInDim S4000000x7 (![] : Fin 0 → Fin S4000000x7.rank)
  slices_S8x7x7_S1x7x7_0_0_0 : S8x7x7.Slices ![0, 0, 0] S1x7x7
  shapeCasts_S1x7x7_S7x7 : S1x7x7.ShapeCasts S7x7
  transposes_S7x7_S7x7_1_0 : S7x7.Transposes [1, 0] S7x7
  slices_S8x7x7_S1x7x7_1_0_0 : S8x7x7.Slices ![1, 0, 0] S1x7x7
  slices_S8x7x7_S1x7x7_2_0_0 : S8x7x7.Slices ![2, 0, 0] S1x7x7
  slices_S8x7x7_S1x7x7_3_0_0 : S8x7x7.Slices ![3, 0, 0] S1x7x7
  slices_S8x7x7_S1x7x7_4_0_0 : S8x7x7.Slices ![4, 0, 0] S1x7x7
  slices_S8x7x7_S1x7x7_5_0_0 : S8x7x7.Slices ![5, 0, 0] S1x7x7
  slices_S8x7x7_S1x7x7_6_0_0 : S8x7x7.Slices ![6, 0, 0] S1x7x7
  slices_S8x7x7_S1x7x7_7_0_0 : S8x7x7.Slices ![7, 0, 0] S1x7x7
  transposes_S1x7_S7x1_1_0 : S1x7.Transposes [1, 0] S7x1
  bcast_S_S4000000x1 : S_.BroadcastsInDim S4000000x1 (![] : Fin 0 → Fin S4000000x1.rank)
  dot_S4000000x2_S2x7_S4000000x7_1_0_0_1_n_n_wf : DotDims.WF S4000000x2 S2x7 S4000000x7 [1] [0] [0] [1] [] []
  dot_S4000000x7_S7x7_S4000000x7_1_0_0_1_n_n_wf : DotDims.WF S4000000x7 S7x7 S4000000x7 [1] [0] [0] [1] [] []
  dot_S4000000x7_S7x1_S4000000x1_1_0_0_1_n_n_wf : DotDims.WF S4000000x7 S7x1 S4000000x1 [1] [0] [0] [1] [] []

variable [Facts₀]

def dot_S4000000x2_S2x7_S4000000x7_1_0_0_1_n_n : DotDims S4000000x2 S2x7 S4000000x7 where
  lhsContracting := [1]
  rhsContracting := [0]
  lhsNonContracting := [0]
  rhsNonContracting := [1]
  lhsBatch := []
  rhsBatch := []
  wf := dot_S4000000x2_S2x7_S4000000x7_1_0_0_1_n_n_wf
def dot_S4000000x7_S7x7_S4000000x7_1_0_0_1_n_n : DotDims S4000000x7 S7x7 S4000000x7 where
  lhsContracting := [1]
  rhsContracting := [0]
  lhsNonContracting := [0]
  rhsNonContracting := [1]
  lhsBatch := []
  rhsBatch := []
  wf := dot_S4000000x7_S7x7_S4000000x7_1_0_0_1_n_n_wf
def dot_S4000000x7_S7x1_S4000000x1_1_0_0_1_n_n : DotDims S4000000x7 S7x1 S4000000x1 where
  lhsContracting := [1]
  rhsContracting := [0]
  lhsNonContracting := [0]
  rhsNonContracting := [1]
  lhsBatch := []
  rhsBatch := []
  wf := dot_S4000000x7_S7x1_S4000000x1_1_0_0_1_n_n_wf

class Facts : Prop extends Facts₀ where

variable [Facts]
-- ==== Proof.Spec.lean ====
/-
  The function both programs compute, stated once over the extended reals.

  A row `x : Fin 2 → EReal` of the input passes through ten bias-free linear layers, each followed by the
  leaky rectifier `act`: the first layer has a 7 × 2 weight matrix, the eight hidden layers 7 × 7 ones (the
  slices of one 8 × 7 × 7 array) and the last a 1 × 7 one. One layer sends `h` to `j ↦ act (∑ k, W j k * h k)`.
  The result of the whole network on row `n` of the input array is entry `(n, 0)` of the output array.
  Nothing here mentions a program: the two value modules each show that their program's result is `out`.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The leaky rectifier, spelt as both programs spell it: `z` where `z ≥ 0` (the comparison of extended reals
    against the value of the zero word), else the slope times `z`. The slope is the value of the single-precision
    word `0x3C23D70A`; it is the same word in both programs, so its value is never needed. -/
def act (z : EReal) : EReal :=
  Scalar.select (FloatOps.cmpf (F := Ideal) (φ := .f32) .oge z (Ideal.ofBits .f32 0x00000000#32)) z
    (Ideal.ofBits .f32 0x3C23D70A#32 * z)

/-- One layer: the matrix–vector product followed by the rectifier, entry by entry. -/
def layer {a b : Nat} (W : Fin a → Fin b → EReal) (h : Fin b → EReal) : Fin a → EReal :=
  fun j => act (∑ k : Fin b, W j k * h k)

/-- The ten layers on one row. -/
def mlp (x : Fin 2 → EReal) (W0 : Fin 7 → Fin 2 → EReal) (Wm : Fin 8 → Fin 7 → Fin 7 → EReal)
    (W9 : Fin 1 → Fin 7 → EReal) : EReal :=
  layer W9 (layer (Wm 7) (layer (Wm 6) (layer (Wm 5) (layer (Wm 4) (layer (Wm 3) (layer (Wm 2)
    (layer (Wm 1) (layer (Wm 0) (layer W0 x))))))))) 0

/-- The network on row `n` of the input array, the weights read out of their arrays. -/
def row (x : (⟨2, ![4000000, 2]⟩ : Shape).Idx → EReal) (w0 : (⟨2, ![7, 2]⟩ : Shape).Idx → EReal)
    (wm : (⟨3, ![8, 7, 7]⟩ : Shape).Idx → EReal) (w9 : (⟨2, ![1, 7]⟩ : Shape).Idx → EReal) (n : Fin 4000000) : EReal :=
  mlp (fun k => x (ix2 n k)) (fun j k => w0 (ix2 j k)) (fun l j k => wm (ix3 l j k)) (fun j k => w9 (ix2 j k))

/-- The output array: entry `(n, 0)` is the network on row `n`. -/
def out (x : (⟨2, ![4000000, 2]⟩ : Shape).Idx → EReal) (w0 : (⟨2, ![7, 2]⟩ : Shape).Idx → EReal)
    (wm : (⟨3, ![8, 7, 7]⟩ : Shape).Idx → EReal) (w9 : (⟨2, ![1, 7]⟩ : Shape).Idx → EReal) :
    (⟨2, ![4000000, 1]⟩ : Shape).Idx → EReal :=
  fun i => row x w0 wm w9 (i 0)

/-- Two indices of a rank-2 shape with the same coordinates are equal. -/
theorem idx2_ext {n0 n1 : Nat} (p q : (⟨2, ![n0, n1]⟩ : Shape).Idx) (h0 : (p 0).val = (q 0).val)
    (h1 : (p 1).val = (q 1).val) : p = q :=
  funext fun a => Fin.ext (by
    match a with
    | ⟨0, _⟩ => exact h0
    | ⟨1, _⟩ => exact h1)

/-- Two indices of a rank-3 shape with the same coordinates are equal. -/
theorem idx3_ext {n0 n1 n2 : Nat} (p q : (⟨3, ![n0, n1, n2]⟩ : Shape).Idx) (h0 : (p 0).val = (q 0).val)
    (h1 : (p 1).val = (q 1).val) (h2 : (p 2).val = (q 2).val) : p = q :=
  funext fun a => Fin.ext (by
    match a with
    | ⟨0, _⟩ => exact h0
    | ⟨1, _⟩ => exact h1
    | ⟨2, _⟩ => exact h2)

/-- The row-major position `j * 7 + k` of a 7 × 7 array splits back into `j` and `k`. -/
theorem divmod7 (j k : Fin 7) : (j.val * 7 + k.val) / 7 % 7 = j.val ∧ (j.val * 7 + k.val) % 7 = k.val := by
  have := j.isLt; have := k.isLt; omega

/-- A value that is the rectifier of a sum of products, the products written activation first, is the layer's entry. -/
theorem layer_of {a b : Nat} {v z : EReal} (W : Fin a → Fin b → EReal) (h : Fin b → EReal) (j : Fin a)
    (hv : v = act z) (hz : z = ∑ k : Fin b, h k * W j k) : v = layer W h j := by
  rw [hv, hz]
  unfold layer
  exact congrArg act (Finset.sum_congr rfl fun k _ => mul_comm _ _)

/-- The same layer with each product written the other way round (the reference multiplies the activations by the
    transposed weights): multiplication of extended reals commutes. -/
theorem layer_comm {a b : Nat} (W : Fin a → Fin b → EReal) (h : Fin b → EReal) (j : Fin a) :
    act (∑ k : Fin b, h k * W j k) = layer W h j := by
  unfold layer
  exact congrArg act (Finset.sum_congr rfl fun k _ => mul_comm _ _)

end Cert.Mlp

end
-- ==== Proof.KernelPayload.lean ====
/-
  The kernel body's arithmetic at one entry of its output block.

  At one grid point the body holds a 2 × 80000 block of the transposed input (80000 rows of the input, one per
  column), the three weight arrays whole, and writes a 1 × 80000 block. Its stored value is the composition of the
  generated payloads; here it is cut into the ten layers. Each layer is a matrix product into the zero accumulator
  (`zfirst`, `zmid`, `zlast`: the change of float format of both operands is the identity on extended reals)
  followed by the rectifier on the whole block (`vact`). Read at column `y`, a layer's output column is
  `Mlp.layer` of the weights and of the previous layer's column `y`; so entry `(0, y)` of the stored block is
  `Mlp.mlp` of column `y` of the input block.
-/
import proofs.«173814_j7911329759901_1_alg».proof.Proof.Gen.KernelIdeal.Skeleton
import proofs.«173814_j7911329759901_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Mlp

/-! ## The pieces of the payload -/

/-- The rectifier on a whole block. -/
def vact {s : Shape} (z : FVec Ideal s .f32) : FVec Ideal s .f32 :=
  select (cmpf .oge z (broadcast s (Scalar.ofBits (F := Ideal) .f32 0x00000000#32))) z
    (mulf (broadcast s (Scalar.ofBits (F := Ideal) .f32 0x3C23D70A#32)) z)

theorem vact_apply {s : Shape} (z : FVec Ideal s .f32) (i : s.Idx) : vact z i = act (z i) := rfl

/-- One 7 × 7 slice of the hidden weights, its leading unit axis dropped. -/
def cast77 (v : Vec Ideal S1x7x7 .f32) : FVec Ideal S7x7 .f32 := shapeCast S7x7 v shapeCasts_S1x7x7_S7x7

/-- The first product: the 7 × 2 weights times the 2 × 80000 input block. -/
def zfirst (w : Vec Ideal S7x2 .f32) (x : Vec Ideal S2x80000 .f32) : FVec Ideal S7x80000 .f32 :=
  matmul dot_S7x2_S2x80000_S7x80000_1_0_0_1_n_n none (truncf .bf16 w bitsLt_bf16_f32)
    (truncf .bf16 (shapeCast S2x80000 x shapeCasts_S2x80000_S2x80000) bitsLt_bf16_f32) (constant S7x80000 .f32 0x00000000#32)

/-- A hidden product: 7 × 7 weights times a 7 × 80000 block. -/
def zmid (w : FVec Ideal S7x7 .f32) (h : FVec Ideal S7x80000 .f32) : FVec Ideal S7x80000 .f32 :=
  matmul dot_S7x7_S7x80000_S7x80000_1_0_0_1_n_n none (truncf .bf16 w bitsLt_bf16_f32)
    (truncf .bf16 h bitsLt_bf16_f32) (constant S7x80000 .f32 0x00000000#32)

/-- The last product: the 1 × 7 weights times a 7 × 80000 block. -/
def zlast (w : Vec Ideal S1x7 .f32) (h : FVec Ideal S7x80000 .f32) : FVec Ideal S1x80000 .f32 :=
  matmul dot_S1x7_S7x80000_S1x80000_1_0_0_1_n_n none (truncf .bf16 w bitsLt_bf16_f32)
    (truncf .bf16 h bitsLt_bf16_f32) (constant S1x80000 .f32 0x00000000#32)

/-- The payloads are these pieces composed: layers 0 to 2 and the fourth product, -/
theorem pay2_eq (v0 : Vec Ideal S2x80000 .f32) (v3 : Vec Ideal S7x2 .f32) (v11 v21 v31 : Vec Ideal S1x7x7 .f32) :
    k0_pay2 (F := Ideal) v0 v3 v11 v21 v31
      = zmid (cast77 v31) (vact (zmid (cast77 v21) (vact (zmid (cast77 v11) (vact (zfirst v3 v0)))))) := rfl

/-- the fourth rectifier and layers 4 to 6, -/
theorem pay3_eq (v35 : FVec Ideal S7x80000 .f32) (v41 v51 v61 : Vec Ideal S1x7x7 .f32) :
    k0_pay3 (F := Ideal) v35 v41 v51 v61
      = vact (zmid (cast77 v61) (vact (zmid (cast77 v51) (vact (zmid (cast77 v41) (vact v35)))))) := rfl

/-- the eighth weight slice, -/
theorem pay4_eq (v71 : Vec Ideal S1x7x7 .f32) : k0_pay4 (F := Ideal) v71 = cast77 v71 := rfl

/-- and layers 7 to 9. -/
theorem pay1_eq (v70 : FVec Ideal S7x80000 .f32) (v72 : FVec Ideal S7x7 .f32) (v81 : Vec Ideal S1x7x7 .f32) (v91 : Vec Ideal S1x7 .f32) :
    k0_pay1 (F := Ideal) v70 v72 v81 v91 = vact (zlast v91 (vact (zmid (cast77 v81) (vact (zmid v72 v70))))) := rfl

/-! ## Each piece at an entry -/

/-- The slice without its unit axis: entry `(j, k)` is entry `(0, j, k)`. -/
theorem cast77_apply (v : Vec Ideal S1x7x7 .f32) (j k : Fin 7) : cast77 v (ix2 j k) = v (ix3 0 j k) := by
  unfold cast77
  exact shapeCast_apply v shapeCasts_S1x7x7_S7x7 (ix2 j k) (ix3 0 j k)
    (by rewrite [Shape.rowMajor_val_three, Shape.rowMajor_val_two]
        show (0 * 7 + j.val) * 7 + k.val = j.val * 7 + k.val
        omega)

/-! The three products at an entry: the sum over the contracted coordinate of weight times activation. The
    operand indices of each product are named coordinate by coordinate, the contraction re-indexed to `Fin K`. -/

theorem zfirst_apply (w : Vec Ideal S7x2 .f32) (x : Vec Ideal S2x80000 .f32) (j : Fin 7) (y : Fin 80000) :
    zfirst w x (ix2 j y) = ∑ k : Fin 2, w (ix2 j k) * x (ix2 k y) := by
  unfold zfirst
  rw [shapeCast_self]
  simp only [matmul]
  rw [Ideal.matmul_constant_zero_apply, ← Equiv.sum_comp (contrEquiv1 dot_S7x2_S2x80000_S7x80000_1_0_0_1_n_n 2 rfl rfl).symm]
  refine Finset.sum_congr rfl fun k _ => ?_
  have hk := contrEquiv1_symm_val dot_S7x2_S2x80000_S7x80000_1_0_0_1_n_n 2 rfl rfl k
  have el : dot_S7x2_S2x80000_S7x80000_1_0_0_1_n_n.lhsIdx (ix2 j y) ((contrEquiv1 dot_S7x2_S2x80000_S7x80000_1_0_0_1_n_n 2 rfl rfl).symm k) = ix2 j k :=
    idx2_ext _ _
      (by unfold DotDims.lhsIdx
          rw [dif_neg (show ¬(0 : Fin S7x2.rank) ∈ dot_S7x2_S2x80000_S7x80000_1_0_0_1_n_n.lhsBatch by decide), dif_pos (show (0 : Fin S7x2.rank) ∈ dot_S7x2_S2x80000_S7x80000_1_0_0_1_n_n.lhsNonContracting by decide)]
          rfl)
      ((dot_S7x2_S2x80000_S7x80000_1_0_0_1_n_n.lhsIdx_val_of_single rfl _ _).trans hk)
  have er : dot_S7x2_S2x80000_S7x80000_1_0_0_1_n_n.rhsIdx (ix2 j y) ((contrEquiv1 dot_S7x2_S2x80000_S7x80000_1_0_0_1_n_n 2 rfl rfl).symm k) = ix2 k y :=
    idx2_ext _ _
      ((dot_S7x2_S2x80000_S7x80000_1_0_0_1_n_n.rhsIdx_val_of_single rfl _ _).trans hk)
      (by unfold DotDims.rhsIdx
          rw [dif_neg (show ¬(1 : Fin S2x80000.rank) ∈ dot_S7x2_S2x80000_S7x80000_1_0_0_1_n_n.rhsBatch by decide), dif_pos (show (1 : Fin S2x80000.rank) ∈ dot_S7x2_S2x80000_S7x80000_1_0_0_1_n_n.rhsNonContracting by decide)]
          rfl)
  rw [el, er]
  rfl

theorem zmid_apply (w : FVec Ideal S7x7 .f32) (h : FVec Ideal S7x80000 .f32) (j : Fin 7) (y : Fin 80000) :
    zmid w h (ix2 j y) = ∑ k : Fin 7, w (ix2 j k) * h (ix2 k y) := by
  unfold zmid
  simp only [matmul]
  rw [Ideal.matmul_constant_zero_apply, ← Equiv.sum_comp (contrEquiv1 dot_S7x7_S7x80000_S7x80000_1_0_0_1_n_n 7 rfl rfl).symm]
  refine Finset.sum_congr rfl fun k _ => ?_
  have hk := contrEquiv1_symm_val dot_S7x7_S7x80000_S7x80000_1_0_0_1_n_n 7 rfl rfl k
  have el : dot_S7x7_S7x80000_S7x80000_1_0_0_1_n_n.lhsIdx (ix2 j y) ((contrEquiv1 dot_S7x7_S7x80000_S7x80000_1_0_0_1_n_n 7 rfl rfl).symm k) = ix2 j k :=
    idx2_ext _ _
      (by unfold DotDims.lhsIdx
          rw [dif_neg (show ¬(0 : Fin S7x7.rank) ∈ dot_S7x7_S7x80000_S7x80000_1_0_0_1_n_n.lhsBatch by decide), dif_pos (show (0 : Fin S7x7.rank) ∈ dot_S7x7_S7x80000_S7x80000_1_0_0_1_n_n.lhsNonContracting by decide)]
          rfl)
      ((dot_S7x7_S7x80000_S7x80000_1_0_0_1_n_n.lhsIdx_val_of_single rfl _ _).trans hk)
  have er : dot_S7x7_S7x80000_S7x80000_1_0_0_1_n_n.rhsIdx (ix2 j y) ((contrEquiv1 dot_S7x7_S7x80000_S7x80000_1_0_0_1_n_n 7 rfl rfl).symm k) = ix2 k y :=
    idx2_ext _ _
      ((dot_S7x7_S7x80000_S7x80000_1_0_0_1_n_n.rhsIdx_val_of_single rfl _ _).trans hk)
      (by unfold DotDims.rhsIdx
          rw [dif_neg (show ¬(1 : Fin S7x80000.rank) ∈ dot_S7x7_S7x80000_S7x80000_1_0_0_1_n_n.rhsBatch by decide), dif_pos (show (1 : Fin S7x80000.rank) ∈ dot_S7x7_S7x80000_S7x80000_1_0_0_1_n_n.rhsNonContracting by decide)]
          rfl)
  rw [el, er]
  rfl

theorem zlast_apply (w : Vec Ideal S1x7 .f32) (h : FVec Ideal S7x80000 .f32) (j : Fin 1) (y : Fin 80000) :
    zlast w h (ix2 j y) = ∑ k : Fin 7, w (ix2 j k) * h (ix2 k y) := by
  unfold zlast
  simp only [matmul]
  rw [Ideal.matmul_constant_zero_apply, ← Equiv.sum_comp (contrEquiv1 dot_S1x7_S7x80000_S1x80000_1_0_0_1_n_n 7 rfl rfl).symm]
  refine Finset.sum_congr rfl fun k _ => ?_
  have hk := contrEquiv1_symm_val dot_S1x7_S7x80000_S1x80000_1_0_0_1_n_n 7 rfl rfl k
  have el : dot_S1x7_S7x80000_S1x80000_1_0_0_1_n_n.lhsIdx (ix2 j y) ((contrEquiv1 dot_S1x7_S7x80000_S1x80000_1_0_0_1_n_n 7 rfl rfl).symm k) = ix2 j k :=
    idx2_ext _ _
      (by unfold DotDims.lhsIdx
          rw [dif_neg (show ¬(0 : Fin S1x7.rank) ∈ dot_S1x7_S7x80000_S1x80000_1_0_0_1_n_n.lhsBatch by decide), dif_pos (show (0 : Fin S1x7.rank) ∈ dot_S1x7_S7x80000_S1x80000_1_0_0_1_n_n.lhsNonContracting by decide)]
          rfl)
      ((dot_S1x7_S7x80000_S1x80000_1_0_0_1_n_n.lhsIdx_val_of_single rfl _ _).trans hk)
  have er : dot_S1x7_S7x80000_S1x80000_1_0_0_1_n_n.rhsIdx (ix2 j y) ((contrEquiv1 dot_S1x7_S7x80000_S1x80000_1_0_0_1_n_n 7 rfl rfl).symm k) = ix2 k y :=
    idx2_ext _ _
      ((dot_S1x7_S7x80000_S1x80000_1_0_0_1_n_n.rhsIdx_val_of_single rfl _ _).trans hk)
      (by unfold DotDims.rhsIdx
          rw [dif_neg (show ¬(1 : Fin S7x80000.rank) ∈ dot_S1x7_S7x80000_S1x80000_1_0_0_1_n_n.rhsBatch by decide), dif_pos (show (1 : Fin S7x80000.rank) ∈ dot_S1x7_S7x80000_S1x80000_1_0_0_1_n_n.rhsNonContracting by decide)]
          rfl)
  rw [el, er]
  rfl

/-! ## A layer's output column -/

/-- Column `y` after the first layer is the layer of column `y` of the input block. -/
theorem first_col (w : Vec Ideal S7x2 .f32) (x : Vec Ideal S2x80000 .f32) (y : Fin 80000) :
    (fun j : Fin 7 => vact (zfirst w x) (ix2 j y)) = layer (fun j k => w (ix2 j k)) (fun k => x (ix2 k y)) :=
  funext fun j => by rw [vact_apply, zfirst_apply]; rfl

/-- Column `y` after a hidden layer is the layer of column `y` before it. -/
theorem mid_col (w : FVec Ideal S7x7 .f32) (h : FVec Ideal S7x80000 .f32) (y : Fin 80000) :
    (fun j : Fin 7 => vact (zmid w h) (ix2 j y)) = layer (fun j k => w (ix2 j k)) (fun k => h (ix2 k y)) :=
  funext fun j => by rw [vact_apply, zmid_apply]; rfl

/-- Column `y` after the last layer likewise (one entry). -/
theorem last_col (w : Vec Ideal S1x7 .f32) (h : FVec Ideal S7x80000 .f32) (y : Fin 80000) :
    (fun j : Fin 1 => vact (zlast w h) (ix2 j y)) = layer (fun j k => w (ix2 j k)) (fun k => h (ix2 k y)) :=
  funext fun j => by rw [vact_apply, zlast_apply]; rfl

/-- A hidden layer whose weights are a slice with its unit axis still on. -/
theorem slice_col (v : Vec Ideal S1x7x7 .f32) (h : FVec Ideal S7x80000 .f32) (y : Fin 80000) :
    (fun j : Fin 7 => vact (zmid (cast77 v) h) (ix2 j y)) = layer (fun j k => v (ix3 0 j k)) (fun k => h (ix2 k y)) := by
  rw [mid_col]
  exact congrArg (fun W => layer W fun k => h (ix2 k y)) (funext fun j => funext fun k => cast77_apply v j k)

/-! ## The stored block at an entry -/

/-- Entry `(0, y)` of the value the body stores: the ten layers on column `y` of the input block, the hidden weights
    the eight loaded slices. -/
theorem stored_apply (a0 : Vec Ideal S2x80000 .f32) (a1 : Vec Ideal S7x2 .f32) (b0 b1 b2 b3 b4 b5 b6 b7 : Vec Ideal S1x7x7 .f32)
    (a3 : Vec Ideal S1x7 .f32) (y : Fin 80000) :
    k0_pay1 (F := Ideal) (k0_pay3 (k0_pay2 a0 a1 b0 b1 b2) b3 b4 b5) (k0_pay4 b6) b7 a3 (ix2 0 y)
      = layer (fun j k => a3 (ix2 j k)) (layer (fun j k => b7 (ix3 0 j k)) (layer (fun j k => b6 (ix3 0 j k))
          (layer (fun j k => b5 (ix3 0 j k)) (layer (fun j k => b4 (ix3 0 j k)) (layer (fun j k => b3 (ix3 0 j k))
          (layer (fun j k => b2 (ix3 0 j k)) (layer (fun j k => b1 (ix3 0 j k)) (layer (fun j k => b0 (ix3 0 j k))
          (layer (fun j k => a1 (ix2 j k)) (fun k => a0 (ix2 k y))))))))))) 0 := by
  rw [pay1_eq, pay3_eq, pay2_eq, pay4_eq]
  refine (congrFun (last_col a3 _ y) 0).trans ?_
  rw [slice_col, slice_col, slice_col, slice_col, slice_col, slice_col, slice_col, slice_col, first_col]

end Cert.KernelIdeal.Payload

end
-- ==== Proof.KernelBlocks.lean ====
/-
  The idealized kernel's result is `Mlp.out` of the argument arrays.

  Before the launch the program transposes the 4000000 × 2 input to 2 × 4000000, so that the rows of the input are
  the columns of what the kernel reads. Grid point `t` (of 50) reads columns `80000 t … 80000 t + 79999` of the
  transposed input and all three weight arrays whole, and writes columns `80000 t …` of a 1 × 4000000 array; the
  50 blocks tile that array. Entry `(0, y)` of the block written at point `t` is the network on column `y` of the
  input block (the payload module), which is row `80000 t + y` of the input. So the 1 × 4000000 array ends holding
  the network's value on row `n` at `(0, n)`, and the final transpose moves it to `(n, 0)`.
-/
import proofs.«173814_j7911329759901_1_alg».proof.Proof.Gen.KernelIdeal.Frame
import proofs.«173814_j7911329759901_1_alg».proof.Proof.KernelPayload
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo Cert.Mlp

variable (m : (ℓ : Loc nD τ sig) → Buf (Elt Ideal) ℓ) (ρ : Dev nD → PrngReg)

/-! ## The body's stored block, from the input blocks -/

theorem hz2 : (![0, 0] : Fin 2 → Nat) = fun _ => 0 := funext fun a => by fin_cases a <;> rfl

/-- A load of one 7 × 7 slice of the hidden weights: entry `(0, j, k)` of what is loaded at offset `l` is entry
    `(l, j, k)` of the array. -/
theorem ld_slice (x2 : Vec Ideal S8x7x7 .f32) (l : Nat) (hl : l < 8)
    (inb : ∀ a, (![l, 0, 0] : Fin 3 → Nat) a + S1x7x7.size a ≤ S8x7x7.size a) :
    (fun j k : Fin 7 => View.ld x2 (Rect.unit (s := S8x7x7) ![l, 0, 0] S1x7x7.size inb) (ix3 0 j k))
      = fun j k => x2 (ix3 ⟨l, hl⟩ j k) :=
  funext fun j => funext fun k => congrArg x2 (idx3_ext _ _
    (by show l + 1 * 0 = l; omega) (by show 0 + 1 * j.val = j.val; omega) (by show 0 + 1 * k.val = k.val; omega))

/-- Entry `y` of what the body leaves in the output's staging buffer, from the four staged inputs: the network on
    column `y` of the input block. -/
theorem out_apply (x0 : Vec Ideal S2x80000 .f32) (x1 : Vec Ideal S7x2 .f32) (x2 : Vec Ideal S8x7x7 .f32) (x3 : Vec Ideal S1x7 .f32)
    (y : S1x80000.Idx) (yy : Fin 80000) (hy : (y 1).val = yy.val) :
    out0_4 x0 x1 x2 x3 y
      = mlp (fun k => x0 (ix2 k yy)) (fun j k => x1 (ix2 j k)) (fun l j k => x2 (ix3 l j k)) (fun j k => x3 (ix2 j k)) := by
  obtain rfl : y = ix2 0 yy := idx2_ext _ _ (by have h : (y 0).val < 1 := (y 0).isLt; show (y 0).val = 0; omega) hy
  unfold out0_4
  rw [View.canon_unit_zero hz2]
  refine (Payload.stored_apply _ _ _ _ _ _ _ _ _ _ _ yy).trans ?_
  rw [View.ld_unit_zero (S := S2x80000) hz2, View.ld_unit_zero (S := S7x2) hz2, View.ld_unit_zero (S := S1x7) hz2,
    ld_slice x2 0 (by decide), ld_slice x2 1 (by decide), ld_slice x2 2 (by decide), ld_slice x2 3 (by decide),
    ld_slice x2 4 (by decide), ld_slice x2 5 (by decide), ld_slice x2 6 (by decide), ld_slice x2 7 (by decide)]
  rfl

/-! ## The arrays as the region finds them -/

/-- The transposed input. -/
theorem V_main_v0 (c : Dev nD) :
    (V m c main_v0 : S2x4000000.Idx → EReal)
      = transpose S2x4000000 [1, 0] (m ((c : Thread nD τ).loc main_arg0)) transposes_S4000000x2_S2x4000000_1_0 := by
  show StableHlo.after hostOps0 (fun b => m (c, b)) (Proc.devRef .tc main_v0) = _
  after_results

/-- The printed index maps, decided over the 50 grid points: the input block and the output block move together
    along the long axis, at the point's own number; every other block index is zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The network on the columns of point `t`'s input block is the network on the rows `80000 t + y` of the input. -/
theorem row_of_block (c : Dev nD) (t : Fin cfg0.N) (yy : Fin 80000) (n : Fin 4000000) (hn : n.val = t.val * 80000 + yy.val) :
    mlp (fun k => iblk m c 0 t (ix2 k yy)) (fun j k => iblk m c 1 t (ix2 j k)) (fun l j k => iblk m c 2 t (ix3 l j k))
        (fun j k => iblk m c 3 t (ix2 j k))
      = row (m ((c : Thread nD τ).loc main_arg0)) (m ((c : Thread nD τ).loc main_arg1)) (m ((c : Thread nD τ).loc main_arg2))
          (m ((c : Thread nD τ).loc main_arg3)) n := by
  obtain ⟨e00, e01, e10, e11, e20, e21, e22, e30, e31, e40, e41⟩ := idx_facts t
  unfold row
  have h0 : (fun k : Fin 2 => iblk m c 0 t (ix2 k yy)) = fun k => m ((c : Thread nD τ).loc main_arg0) (ix2 n k) := by
    funext k
    show V m c main_v0 (((cfg0.win 0).blk t).view.emb (ix2 k yy)) = _
    rw [V_main_v0]
    exact transpose_apply [1, 0] _ transposes_S4000000x2_S2x4000000_1_0 _ (ix2 n k) (fun b => match b with
      | ⟨0, _⟩ => by show k.val = win0_0.index t (0 : Fin 2) * 2 + 1 * k.val; omega
      | ⟨1, _⟩ => by show n.val = win0_0.index t (1 : Fin 2) * 80000 + 1 * yy.val; rw [e01, Nat.one_mul]; exact hn)
  have h1 : (fun j : Fin 7 => fun k : Fin 2 => iblk m c 1 t (ix2 j k)) = fun j k => m ((c : Thread nD τ).loc main_arg1) (ix2 j k) := by
    funext j k
    show V m c main_arg1 (((cfg0.win 1).blk t).view.emb (ix2 j k)) = _
    rw [V_main_arg1]
    exact congrArg _ (idx2_ext _ _ (by show win0_1.index t (0 : Fin 2) * 7 + 1 * j.val = j.val; omega)
      (by show win0_1.index t (1 : Fin 2) * 2 + 1 * k.val = k.val; omega))
  have h2 : (fun l : Fin 8 => fun j k : Fin 7 => iblk m c 2 t (ix3 l j k)) = fun l j k => m ((c : Thread nD τ).loc main_arg2) (ix3 l j k) := by
    funext l j k
    show V m c main_arg2 (((cfg0.win 2).blk t).view.emb (ix3 l j k)) = _
    rw [V_main_arg2]
    exact congrArg _ (idx3_ext _ _ (by show win0_2.index t (0 : Fin 3) * 8 + 1 * l.val = l.val; omega)
      (by show win0_2.index t (1 : Fin 3) * 7 + 1 * j.val = j.val; omega)
      (by show win0_2.index t (2 : Fin 3) * 7 + 1 * k.val = k.val; omega))
  have h3 : (fun j : Fin 1 => fun k : Fin 7 => iblk m c 3 t (ix2 j k)) = fun j k => m ((c : Thread nD τ).loc main_arg3) (ix2 j k) := by
    funext j k
    show V m c main_arg3 (((cfg0.win 3).blk t).view.emb (ix2 j k)) = _
    rw [V_main_arg3]
    exact congrArg _ (idx2_ext _ _ (by show win0_3.index t (0 : Fin 2) * 1 + 1 * j.val = j.val; omega)
      (by show win0_3.index t (1 : Fin 2) * 7 + 1 * k.val = k.val; omega))
  rw [h0, h1, h2, h3]

/-! ## The 1 × 4000000 array after the region -/

/-- What it ends holding: at `(0, n)` the network on row `n`. -/
def lane (c : Dev nD) : S1x4000000.Idx → EReal := fun i =>
  row (m ((c : Thread nD τ).loc main_arg0)) (m ((c : Thread nD τ).loc main_arg1)) (m ((c : Thread nD τ).loc main_arg2))
    (m ((c : Thread nD τ).loc main_arg3)) (i 1)

/-- What point `t` writes back is block `t` of `lane`. -/
theorem flushed_eq (c : Dev nD) (t : Fin cfg0.N) :
    (dats m 0 c).flushed 4 t = ((cfg0.win 4).blk t).view.read (Elt Ideal) (lane m c) := by
  show (cfg0.win 4).cut (grid0.coords t) ((dats m 0 c).after 4 t) = _
  rw [after0_4]
  obtain ⟨e00, e01, e10, e11, e20, e21, e22, e30, e31, e40, e41⟩ := idx_facts t
  funext y
  refine (out_apply (iblk m c 0 t) (iblk m c 1 t) (iblk m c 2 t) (iblk m c 3 t) y ⟨(y 1).val, (y 1).isLt⟩ rfl).trans ?_
  show _ = row _ _ _ _ ((((cfg0.win 4).blk t).view.emb y) 1)
  exact row_of_block m c t _ _ (by
    show win0_4.index t (1 : Fin 2) * 80000 + 1 * (y 1).val = t.val * 80000 + (y 1).val
    omega)

/-- An index of the array is in point `t`'s block iff each coordinate is in the block's range on its axis. -/
theorem mem_blk (t : Fin cfg0.N) (i : S1x4000000.Idx) :
    i ∈ ((cfg0.win 4).blk t).view.set ↔ ∀ a : Fin 2, win0_4.index t a * S1x80000.size a ≤ (i a).val ∧ (i a).val < win0_4.index t a * S1x80000.size a + S1x80000.size a := by
  show i ∈ ((View.whole main_v1).slice (win0_4.rect t)).set ↔ _
  rw [View.set_slice_whole, Rect.mem_set_unit]
  exact Iff.rfl

/-- Every index is in the block of the point numbered by its column divided by 80000. -/
theorem cover (i : S1x4000000.Idx) : ∃ t : Fin cfg0.N, (cfg0.win 4).flush t = true ∧ i ∈ ((cfg0.win 4).blk t).view.set := by
  have hi0 : (i 0).val < 1 := (i 0).isLt
  have hi1 : (i 1).val < 4000000 := (i 1).isLt
  have hN : grid0.N = 50 := N_0
  have ht : (i 1).val / 80000 < cfg0.N := by show _ < grid0.N; omega
  obtain ⟨e00, e01, e10, e11, e20, e21, e22, e30, e31, e40, e41⟩ := idx_facts ⟨(i 1).val / 80000, ht⟩
  refine ⟨⟨(i 1).val / 80000, ht⟩, flush0_4 _, ?_⟩
  rw [mem_blk]
  intro a
  match a with
  | ⟨0, _⟩ =>
    show win0_4.index ⟨(i 1).val / 80000, ht⟩ (0 : Fin 2) * 1 ≤ (i 0).val ∧ (i 0).val < win0_4.index ⟨(i 1).val / 80000, ht⟩ (0 : Fin 2) * 1 + 1
    omega
  | ⟨1, _⟩ =>
    show win0_4.index ⟨(i 1).val / 80000, ht⟩ (1 : Fin 2) * 80000 ≤ (i 1).val ∧ (i 1).val < win0_4.index ⟨(i 1).val / 80000, ht⟩ (1 : Fin 2) * 80000 + 80000
    have e : win0_4.index ⟨(i 1).val / 80000, ht⟩ (1 : Fin 2) = (i 1).val / 80000 := e41
    omega

/-- The array after the run. -/
theorem final (c : Dev nD) : (dats m 0 c).arrAt 4 cfg0.N = lane m c :=
  (dats m 0 c).arrAt_eq_of_cover 4 (lane m c) (fun t _ => flushed_eq m c t) cover

/-! ## The result: the last transpose -/

/-- What the program's result buffer holds after the line that follows the region. -/
theorem tail_eq (c : Dev nD) :
    Pipeline.afterTail₀ cfgs (dats m) 0 (V0 m) [hostOps1] c main_v2
      = Mlp.out (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = lane m c :=
    (Pipeline.withArrays_arr spec0 launch0.win.arr_inj c _ _ 4).trans (final m c)
  rw [hw]
  funext i
  exact transpose_apply [1, 0] (lane m c) transposes_S1x4000000_S4000000x1_1_0 i (ix2 0 (i 0)) (fun b => match b with
    | ⟨0, _⟩ => rfl
    | ⟨1, _⟩ => by have h : (i 1).val < 1 := (i 1).isLt; show 0 = (i 1).val; omega)

/-! ## The run, read -/

/-- The generated frame run re-posted: the result buffer holds `Mlp.out` of the argument arrays, which are unchanged. -/
theorem run : θ_run defs (onTc (τ := τ) (main (F := Ideal))) ⟨m, fun _ => 0, ρ⟩ fun r => ∀ c : Dev nD,
      r.2.mem ((c.tc : Thread nD τ).loc main_v2)
        = Mlp.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.RefRunProof.lean ====
/-
  The reference's run: every weakly fair execution of its @main ends with the result buffer holding the last stage
  of the read module, `val_main_v85` of the four argument arrays, and the arguments unchanged.

  @main is a straight line of 106 operations (`ops`). What the buffers hold after a line is a fold over it
  (`after`), and the fold of a line cut in two is the fold of the second part from the fold of the first. The line
  is cut where the network's layers end: 9 operations for the first layer, 11 for each of the eight hidden ones, 9
  for the last. One layer's operations, run from ANY contents `W`, leave in the layer's result buffer the layer's
  stage of what `W` holds in the previous layer's result buffer and in the weight array; no operation writes an
  argument. Chaining the ten parts gives the result after the whole line.
-/
import proofs.«173814_j7911329759901_1_alg».proof.Proof.RefRun
import proofs.«173814_j7911329759901_1_alg».proof.Proof.RefRead
import Idealize.ShloMosaic.Lib.Pipeline.Frame
import Idealize.ShloMosaic.Lib.StableHlo.Run

set_option maxRecDepth 16384

noncomputable section

namespace Cert.ReferenceIdeal.RefRunProof

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Cutting the line -/

/-- The contents after the first `c = a + b` operations are those after the next `b` from those after the first `a`. -/
theorem after_take_add (a b c : Nat) (h : a + b = c) (V : Valuation τ sig (Elt F)) :
    after ((ops (F := F)).take c) V = after (((ops (F := F)).drop a).take b) (after ((ops (F := F)).take a) V) := by
  subst h
  rw [List.take_add, StableHlo.after_append]

/-! ## No operation writes an argument -/

theorem arg0_not_written : ∀ op ∈ (ops (F := F)), Proc.devRef (τ := τ) .tc main_arg0 ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))
theorem arg1_not_written : ∀ op ∈ (ops (F := F)), Proc.devRef (τ := τ) .tc main_arg1 ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))
theorem arg2_not_written : ∀ op ∈ (ops (F := F)), Proc.devRef (τ := τ) .tc main_arg2 ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))
theorem arg3_not_written : ∀ op ∈ (ops (F := F)), Proc.devRef (τ := τ) .tc main_arg3 ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

/-- So after any initial part of the line the weight arrays are as launched. -/
theorem kept2 (k : Nat) (V : Valuation τ sig (Elt F)) :
    after ((ops (F := F)).take k) V (Proc.devRef .tc main_arg2) = V (Proc.devRef .tc main_arg2) :=
  after_of_forall_not_mem _ _ fun op h => arg2_not_written op (List.mem_of_mem_take h)
theorem kept3 (k : Nat) (V : Valuation τ sig (Elt F)) :
    after ((ops (F := F)).take k) V (Proc.devRef .tc main_arg3) = V (Proc.devRef .tc main_arg3) :=
  after_of_forall_not_mem _ _ fun op h => arg3_not_written op (List.mem_of_mem_take h)

/-! ## One layer's operations, from any contents -/

/-- The first layer (operations 0–8). -/
theorem layer0_ops (W : Valuation τ sig (Elt F)) :
    after ((ops (F := F)).take 9) W (Proc.devRef .tc main_v6)
      = val_main_v6 (F := F) (W (Proc.devRef .tc main_arg0)) (W (Proc.devRef .tc main_arg1)) := by
  simp only [ops, List.take_succ_cons, List.take_zero]
  after_results
  rfl

/-- Hidden layer 0 (operations 9–19). -/
theorem layer1_ops (W : Valuation τ sig (Elt F)) (x0 x1 x2)
    (hp : W (Proc.devRef .tc main_v6) = val_main_v6 (F := F) x0 x1) (hw : W (Proc.devRef .tc main_arg2) = x2) :
    after (((ops (F := F)).drop 9).take 11) W (Proc.devRef .tc main_v15) = val_main_v15 (F := F) x0 x1 x2 := by
  simp only [ops, List.drop_succ_cons, List.drop_zero, List.take_succ_cons, List.take_zero]
  after_results
  rw [hp, hw]
  rfl

/-- Hidden layer 1 (operations 20–30). -/
theorem layer2_ops (W : Valuation τ sig (Elt F)) (x0 x1 x2)
    (hp : W (Proc.devRef .tc main_v15) = val_main_v15 (F := F) x0 x1 x2) (hw : W (Proc.devRef .tc main_arg2) = x2) :
    after (((ops (F := F)).drop 20).take 11) W (Proc.devRef .tc main_v24) = val_main_v24 (F := F) x0 x1 x2 := by
  simp only [ops, List.drop_succ_cons, List.drop_zero, List.take_succ_cons, List.take_zero]
  after_results
  rw [hp, hw]
  rfl

/-- Hidden layer 2 (operations 31–41). -/
theorem layer3_ops (W : Valuation τ sig (Elt F)) (x0 x1 x2)
    (hp : W (Proc.devRef .tc main_v24) = val_main_v24 (F := F) x0 x1 x2) (hw : W (Proc.devRef .tc main_arg2) = x2) :
    after (((ops (F := F)).drop 31).take 11) W (Proc.devRef .tc main_v33) = val_main_v33 (F := F) x0 x1 x2 := by
  simp only [ops, List.drop_succ_cons, List.drop_zero, List.take_succ_cons, List.take_zero]
  after_results
  rw [hp, hw]
  rfl

/-- Hidden layer 3 (operations 42–52). -/
theorem layer4_ops (W : Valuation τ sig (Elt F)) (x0 x1 x2)
    (hp : W (Proc.devRef .tc main_v33) = val_main_v33 (F := F) x0 x1 x2) (hw : W (Proc.devRef .tc main_arg2) = x2) :
    after (((ops (F := F)).drop 42).take 11) W (Proc.devRef .tc main_v42) = val_main_v42 (F := F) x0 x1 x2 := by
  simp only [ops, List.drop_succ_cons, List.drop_zero, List.take_succ_cons, List.take_zero]
  after_results
  rw [hp, hw]
  rfl

/-- Hidden layer 4 (operations 53–63). -/
theorem layer5_ops (W : Valuation τ sig (Elt F)) (x0 x1 x2)
    (hp : W (Proc.devRef .tc main_v42) = val_main_v42 (F := F) x0 x1 x2) (hw : W (Proc.devRef .tc main_arg2) = x2) :
    after (((ops (F := F)).drop 53).take 11) W (Proc.devRef .tc main_v51) = val_main_v51 (F := F) x0 x1 x2 := by
  simp only [ops, List.drop_succ_cons, List.drop_zero, List.take_succ_cons, List.take_zero]
  after_results
  rw [hp, hw]
  rfl

/-- Hidden layer 5 (operations 64–74). -/
theorem layer6_ops (W : Valuation τ sig (Elt F)) (x0 x1 x2)
    (hp : W (Proc.devRef .tc main_v51) = val_main_v51 (F := F) x0 x1 x2) (hw : W (Proc.devRef .tc main_arg2) = x2) :
    after (((ops (F := F)).drop 64).take 11) W (Proc.devRef .tc main_v60) = val_main_v60 (F := F) x0 x1 x2 := by
  simp only [ops, List.drop_succ_cons, List.drop_zero, List.take_succ_cons, List.take_zero]
  after_results
  rw [hp, hw]
  rfl

/-- Hidden layer 6 (operations 75–85). -/
theorem layer7_ops (W : Valuation τ sig (Elt F)) (x0 x1 x2)
    (hp : W (Proc.devRef .tc main_v60) = val_main_v60 (F := F) x0 x1 x2) (hw : W (Proc.devRef .tc main_arg2) = x2) :
    after (((ops (F := F)).drop 75).take 11) W (Proc.devRef .tc main_v69) = val_main_v69 (F := F) x0 x1 x2 := by
  simp only [ops, List.drop_succ_cons, List.drop_zero, List.take_succ_cons, List.take_zero]
  after_results
  rw [hp, hw]
  rfl

/-- Hidden layer 7 (operations 86–96). -/
theorem layer8_ops (W : Valuation τ sig (Elt F)) (x0 x1 x2)
    (hp : W (Proc.devRef .tc main_v69) = val_main_v69 (F := F) x0 x1 x2) (hw : W (Proc.devRef .tc main_arg2) = x2) :
    after (((ops (F := F)).drop 86).take 11) W (Proc.devRef .tc main_v78) = val_main_v78 (F := F) x0 x1 x2 := by
  simp only [ops, List.drop_succ_cons, List.drop_zero, List.take_succ_cons, List.take_zero]
  after_results
  rw [hp, hw]
  rfl

/-- The last layer (operations 97–105). -/
theorem layer9_ops (W : Valuation τ sig (Elt F)) (x0 x1 x2 x3)
    (hp : W (Proc.devRef .tc main_v78) = val_main_v78 (F := F) x0 x1 x2) (hw : W (Proc.devRef .tc main_arg3) = x3) :
    after (((ops (F := F)).drop 97).take 9) W (Proc.devRef .tc main_v85) = val_main_v85 (F := F) x0 x1 x2 x3 := by
  simp only [ops, List.drop_succ_cons, List.drop_zero, List.take_succ_cons, List.take_zero]
  after_results
  rw [hp, hw]
  rfl

/-! ## The ten parts chained -/

/-- The four argument arrays' contents in a valuation. -/
abbrev arg0Of (V : Valuation τ sig (Elt F)) := V (Proc.devRef .tc main_arg0)
abbrev arg1Of (V : Valuation τ sig (Elt F)) := V (Proc.devRef .tc main_arg1)
abbrev arg2Of (V : Valuation τ sig (Elt F)) := V (Proc.devRef .tc main_arg2)
abbrev arg3Of (V : Valuation τ sig (Elt F)) := V (Proc.devRef .tc main_arg3)

section Chain

variable (V : Valuation τ sig (Elt F))

theorem at9 : after ((ops (F := F)).take 9) V (Proc.devRef .tc main_v6) = val_main_v6 (F := F) (arg0Of V) (arg1Of V) := layer0_ops V

theorem at20 : after ((ops (F := F)).take 20) V (Proc.devRef .tc main_v15) = val_main_v15 (F := F) (arg0Of V) (arg1Of V) (arg2Of V) := by
  rw [after_take_add 9 11 20 rfl]
  exact layer1_ops _ _ _ _ (at9 V) (kept2 9 V)

theorem at31 : after ((ops (F := F)).take 31) V (Proc.devRef .tc main_v24) = val_main_v24 (F := F) (arg0Of V) (arg1Of V) (arg2Of V) := by
  rw [after_take_add 20 11 31 rfl]
  exact layer2_ops _ _ _ _ (at20 V) (kept2 20 V)

theorem at42 : after ((ops (F := F)).take 42) V (Proc.devRef .tc main_v33) = val_main_v33 (F := F) (arg0Of V) (arg1Of V) (arg2Of V) := by
  rw [after_take_add 31 11 42 rfl]
  exact layer3_ops _ _ _ _ (at31 V) (kept2 31 V)

theorem at53 : after ((ops (F := F)).take 53) V (Proc.devRef .tc main_v42) = val_main_v42 (F := F) (arg0Of V) (arg1Of V) (arg2Of V) := by
  rw [after_take_add 42 11 53 rfl]
  exact layer4_ops _ _ _ _ (at42 V) (kept2 42 V)

theorem at64 : after ((ops (F := F)).take 64) V (Proc.devRef .tc main_v51) = val_main_v51 (F := F) (arg0Of V) (arg1Of V) (arg2Of V) := by
  rw [after_take_add 53 11 64 rfl]
  exact layer5_ops _ _ _ _ (at53 V) (kept2 53 V)

theorem at75 : after ((ops (F := F)).take 75) V (Proc.devRef .tc main_v60) = val_main_v60 (F := F) (arg0Of V) (arg1Of V) (arg2Of V) := by
  rw [after_take_add 64 11 75 rfl]
  exact layer6_ops _ _ _ _ (at64 V) (kept2 64 V)

theorem at86 : after ((ops (F := F)).take 86) V (Proc.devRef .tc main_v69) = val_main_v69 (F := F) (arg0Of V) (arg1Of V) (arg2Of V) := by
  rw [after_take_add 75 11 86 rfl]
  exact layer7_ops _ _ _ _ (at75 V) (kept2 75 V)

theorem at97 : after ((ops (F := F)).take 97) V (Proc.devRef .tc main_v78) = val_main_v78 (F := F) (arg0Of V) (arg1Of V) (arg2Of V) := by
  rw [after_take_add 86 11 97 rfl]
  exact layer8_ops _ _ _ _ (at86 V) (kept2 86 V)

theorem at106 : after ((ops (F := F)).take 106) V (Proc.devRef .tc main_v85) = val_main_v85 (F := F) (arg0Of V) (arg1Of V) (arg2Of V) (arg3Of V) := by
  rw [after_take_add 97 9 106 rfl]
  exact layer9_ops _ _ _ _ _ (at97 V) (kept3 97 V)

/-- The result buffer after the whole line. -/
theorem after_ops : after (ops (F := F)) V (Proc.devRef .tc main_v85) = val_main_v85 (F := F) (arg0Of V) (arg1Of V) (arg2Of V) (arg3Of V) := by
  have e : (ops (F := F)).take 106 = ops (F := F) :=
    List.take_of_length_le (l := ops (F := F)) (i := 106) (Nat.le_of_eq rfl)
  have h := at106 V
  rw [e] at h
  exact h

end Chain

/-! ## The run -/

/-- Every weakly fair execution of @main terminates with the result buffer at the last stage of the argument arrays
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = val_main_v85 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v85).trans (after_ops _),
      (h c main_arg0).trans (after_of_forall_not_mem _ _ arg0_not_written),
      (h c main_arg1).trans (after_of_forall_not_mem _ _ arg1_not_written),
      (h c main_arg2).trans (after_of_forall_not_mem _ _ arg2_not_written),
      (h c main_arg3).trans (after_of_forall_not_mem _ _ arg3_not_written)⟩)
    (run_seq scopedRefs_eq scopedSems_eq defs main (fun _ => ops) main_eq (fun _ => ops_sub) m ρ)

end Cert.ReferenceIdeal.RefRunProof

end
-- ==== Proof.RefValue.lean ====
/-
  The reference's result is `Mlp.out` of the argument arrays.

  The reference keeps the activations as a 4000000 × 7 array, one row per input row. Each layer multiplies that
  array by the TRANSPOSED weight matrix (`h · Wᵀ`), so its entry `(n, j)` is `∑ k, h (n, k) * W (j, k)`: the
  layer's sum with each product written activation first. The rectifier follows entry by entry. Layer by layer,
  row `n` of the activations is `Mlp.layer` of the weights and of row `n` before; the hidden weights are slice
  `l` of the 8 × 7 × 7 array, reshaped to 7 × 7 and transposed. The generated read-at-an-index lemmas give every
  stage at an index; written here is how the stages compose.
-/
import proofs.«173814_j7911329759901_1_alg».proof.Proof.RefRead
import proofs.«173814_j7911329759901_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx Cert.Mlp

/-- The four argument arrays' contents at the extended reals. -/
abbrev ArgX := (⟨S4000000x2, .f32⟩ : BufTy).Contents (Elt Ideal)
abbrev ArgW0 := (⟨S7x2, .f32⟩ : BufTy).Contents (Elt Ideal)
abbrev ArgWm := (⟨S8x7x7, .f32⟩ : BufTy).Contents (Elt Ideal)
abbrev ArgW9 := (⟨S1x7, .f32⟩ : BufTy).Contents (Elt Ideal)

/-- The rectifier as the reference spells it on a whole array — a comparison with a broadcast zero, a product with a
    broadcast slope, a select — read at an index. -/
theorem act_apply {s : Shape} (z zero slope : FVec Ideal s .f32) (i : s.Idx)
    (h0 : zero i = Ideal.ofBits .f32 0x00000000#32) (h1 : slope i = Ideal.ofBits .f32 0x3C23D70A#32) :
    select (cmpf .oge z zero) z (mulf slope z) i = act (z i) := by
  show Scalar.select (FloatOps.cmpf .oge (z i) (zero i)) (z i) (FloatOps.mulf (slope i) (z i)) = _
  rw [h0, h1]
  rfl

/-! ## The first layer -/

/-- The transposed first weights at `(k, j)` are the weights at `(j, k)`. -/
theorem w0_apply (x1 : ArgW0) (j : Fin 7) (k : Fin 2) : val_main_v0 (F := Ideal) x1 (ix2 k j) = x1 (ix2 j k) := by
  rw [val_main_v0_apply]
  exact congrArg x1 (idx2_ext _ _ rfl rfl)

/-- Row `n` after the first layer. -/
theorem row0 (x0 : ArgX) (x1 : ArgW0) (n : Fin 4000000) :
    (fun j : Fin 7 => val_main_v6 (F := Ideal) x0 x1 (ix2 n j))
      = layer (fun j k => x1 (ix2 j k)) (fun k => x0 (ix2 n k)) :=
  funext fun j => layer_of (z := val_main_v1 (F := Ideal) x0 x1 (ix2 n j)) _ _ j
    (by unfold val_main_v6 val_main_v3 val_main_v5
        exact act_apply _ _ _ _ ((val_main_v2_apply _).trans (val_main_cst_apply _)) ((val_main_v4_apply _).trans (val_main_cst_0_apply _)))
    (by rw [val_main_v1_apply]
        refine Finset.sum_congr rfl fun k _ => ?_
        rw [show ridx_main_v1 (ix2 n j) k = ix2 k j from idx2_ext _ _ rfl rfl, w0_apply,
          show lidx_main_v1 (ix2 n j) k = ix2 n k from idx2_ext _ _ rfl rfl])

/-! ## The eight hidden layers

Each is the same three steps: the weights (slice, reshape, transpose) at an index; the product as the layer's sum;
the rectifier. -/

/-- Slice 0 of the hidden weights, reshaped and transposed, at `(k, j)`. -/
theorem w1_apply (x2 : ArgWm) (j k : Fin 7) : val_main_v9 (F := Ideal) x2 (ix2 k j) = x2 (ix3 0 j k) := by
  rw [val_main_v9_apply, val_main_v8_apply, val_main_v7_apply]
  exact congrArg x2 (idx3_ext _ _ rfl (divmod7 j k).1 (divmod7 j k).2)

/-- Row `n` after hidden layer 0. -/
theorem row1 (x0 : ArgX) (x1 : ArgW0) (x2 : ArgWm) (n : Fin 4000000) :
    (fun j : Fin 7 => val_main_v15 (F := Ideal) x0 x1 x2 (ix2 n j))
      = layer (fun j k => x2 (ix3 0 j k)) (fun k => val_main_v6 (F := Ideal) x0 x1 (ix2 n k)) :=
  funext fun j => layer_of (z := val_main_v10 (F := Ideal) x0 x1 x2 (ix2 n j)) _ _ j
    (by unfold val_main_v15 val_main_v12 val_main_v14
        exact act_apply _ _ _ _ ((val_main_v11_apply _).trans (val_main_cst_1_apply _)) ((val_main_v13_apply _).trans (val_main_cst_2_apply _)))
    (by rw [val_main_v10_apply]
        refine Finset.sum_congr rfl fun k _ => ?_
        rw [show ridx_main_v10 (ix2 n j) k = ix2 k j from idx2_ext _ _ rfl rfl, w1_apply,
          show lidx_main_v10 (ix2 n j) k = ix2 n k from idx2_ext _ _ rfl rfl])

/-- Slice 1 of the hidden weights, reshaped and transposed, at `(k, j)`. -/
theorem w2_apply (x2 : ArgWm) (j k : Fin 7) : val_main_v18 (F := Ideal) x2 (ix2 k j) = x2 (ix3 1 j k) := by
  rw [val_main_v18_apply, val_main_v17_apply, val_main_v16_apply]
  exact congrArg x2 (idx3_ext _ _ rfl (divmod7 j k).1 (divmod7 j k).2)

/-- Row `n` after hidden layer 1. -/
theorem row2 (x0 : ArgX) (x1 : ArgW0) (x2 : ArgWm) (n : Fin 4000000) :
    (fun j : Fin 7 => val_main_v24 (F := Ideal) x0 x1 x2 (ix2 n j))
      = layer (fun j k => x2 (ix3 1 j k)) (fun k => val_main_v15 (F := Ideal) x0 x1 x2 (ix2 n k)) :=
  funext fun j => layer_of (z := val_main_v19 (F := Ideal) x0 x1 x2 (ix2 n j)) _ _ j
    (by unfold val_main_v24 val_main_v21 val_main_v23
        exact act_apply _ _ _ _ ((val_main_v20_apply _).trans (val_main_cst_3_apply _)) ((val_main_v22_apply _).trans (val_main_cst_4_apply _)))
    (by rw [val_main_v19_apply]
        refine Finset.sum_congr rfl fun k _ => ?_
        rw [show ridx_main_v19 (ix2 n j) k = ix2 k j from idx2_ext _ _ rfl rfl, w2_apply,
          show lidx_main_v19 (ix2 n j) k = ix2 n k from idx2_ext _ _ rfl rfl])

/-- Slice 2 of the hidden weights, reshaped and transposed, at `(k, j)`. -/
theorem w3_apply (x2 : ArgWm) (j k : Fin 7) : val_main_v27 (F := Ideal) x2 (ix2 k j) = x2 (ix3 2 j k) := by
  rw [val_main_v27_apply, val_main_v26_apply, val_main_v25_apply]
  exact congrArg x2 (idx3_ext _ _ rfl (divmod7 j k).1 (divmod7 j k).2)

/-- Row `n` after hidden layer 2. -/
theorem row3 (x0 : ArgX) (x1 : ArgW0) (x2 : ArgWm) (n : Fin 4000000) :
    (fun j : Fin 7 => val_main_v33 (F := Ideal) x0 x1 x2 (ix2 n j))
      = layer (fun j k => x2 (ix3 2 j k)) (fun k => val_main_v24 (F := Ideal) x0 x1 x2 (ix2 n k)) :=
  funext fun j => layer_of (z := val_main_v28 (F := Ideal) x0 x1 x2 (ix2 n j)) _ _ j
    (by unfold val_main_v33 val_main_v30 val_main_v32
        exact act_apply _ _ _ _ ((val_main_v29_apply _).trans (val_main_cst_5_apply _)) ((val_main_v31_apply _).trans (val_main_cst_6_apply _)))
    (by rw [val_main_v28_apply]
        refine Finset.sum_congr rfl fun k _ => ?_
        rw [show ridx_main_v28 (ix2 n j) k = ix2 k j from idx2_ext _ _ rfl rfl, w3_apply,
          show lidx_main_v28 (ix2 n j) k = ix2 n k from idx2_ext _ _ rfl rfl])

/-- Slice 3 of the hidden weights, reshaped and transposed, at `(k, j)`. -/
theorem w4_apply (x2 : ArgWm) (j k : Fin 7) : val_main_v36 (F := Ideal) x2 (ix2 k j) = x2 (ix3 3 j k) := by
  rw [val_main_v36_apply, val_main_v35_apply, val_main_v34_apply]
  exact congrArg x2 (idx3_ext _ _ rfl (divmod7 j k).1 (divmod7 j k).2)

/-- Row `n` after hidden layer 3. -/
theorem row4 (x0 : ArgX) (x1 : ArgW0) (x2 : ArgWm) (n : Fin 4000000) :
    (fun j : Fin 7 => val_main_v42 (F := Ideal) x0 x1 x2 (ix2 n j))
      = layer (fun j k => x2 (ix3 3 j k)) (fun k => val_main_v33 (F := Ideal) x0 x1 x2 (ix2 n k)) :=
  funext fun j => layer_of (z := val_main_v37 (F := Ideal) x0 x1 x2 (ix2 n j)) _ _ j
    (by unfold val_main_v42 val_main_v39 val_main_v41
        exact act_apply _ _ _ _ ((val_main_v38_apply _).trans (val_main_cst_7_apply _)) ((val_main_v40_apply _).trans (val_main_cst_8_apply _)))
    (by rw [val_main_v37_apply]
        refine Finset.sum_congr rfl fun k _ => ?_
        rw [show ridx_main_v37 (ix2 n j) k = ix2 k j from idx2_ext _ _ rfl rfl, w4_apply,
          show lidx_main_v37 (ix2 n j) k = ix2 n k from idx2_ext _ _ rfl rfl])

/-- Slice 4 of the hidden weights, reshaped and transposed, at `(k, j)`. -/
theorem w5_apply (x2 : ArgWm) (j k : Fin 7) : val_main_v45 (F := Ideal) x2 (ix2 k j) = x2 (ix3 4 j k) := by
  rw [val_main_v45_apply, val_main_v44_apply, val_main_v43_apply]
  exact congrArg x2 (idx3_ext _ _ rfl (divmod7 j k).1 (divmod7 j k).2)

/-- Row `n` after hidden layer 4. -/
theorem row5 (x0 : ArgX) (x1 : ArgW0) (x2 : ArgWm) (n : Fin 4000000) :
    (fun j : Fin 7 => val_main_v51 (F := Ideal) x0 x1 x2 (ix2 n j))
      = layer (fun j k => x2 (ix3 4 j k)) (fun k => val_main_v42 (F := Ideal) x0 x1 x2 (ix2 n k)) :=
  funext fun j => layer_of (z := val_main_v46 (F := Ideal) x0 x1 x2 (ix2 n j)) _ _ j
    (by unfold val_main_v51 val_main_v48 val_main_v50
        exact act_apply _ _ _ _ ((val_main_v47_apply _).trans (val_main_cst_9_apply _)) ((val_main_v49_apply _).trans (val_main_cst_10_apply _)))
    (by rw [val_main_v46_apply]
        refine Finset.sum_congr rfl fun k _ => ?_
        rw [show ridx_main_v46 (ix2 n j) k = ix2 k j from idx2_ext _ _ rfl rfl, w5_apply,
          show lidx_main_v46 (ix2 n j) k = ix2 n k from idx2_ext _ _ rfl rfl])

/-- Slice 5 of the hidden weights, reshaped and transposed, at `(k, j)`. -/
theorem w6_apply (x2 : ArgWm) (j k : Fin 7) : val_main_v54 (F := Ideal) x2 (ix2 k j) = x2 (ix3 5 j k) := by
  rw [val_main_v54_apply, val_main_v53_apply, val_main_v52_apply]
  exact congrArg x2 (idx3_ext _ _ rfl (divmod7 j k).1 (divmod7 j k).2)

/-- Row `n` after hidden layer 5. -/
theorem row6 (x0 : ArgX) (x1 : ArgW0) (x2 : ArgWm) (n : Fin 4000000) :
    (fun j : Fin 7 => val_main_v60 (F := Ideal) x0 x1 x2 (ix2 n j))
      = layer (fun j k => x2 (ix3 5 j k)) (fun k => val_main_v51 (F := Ideal) x0 x1 x2 (ix2 n k)) :=
  funext fun j => layer_of (z := val_main_v55 (F := Ideal) x0 x1 x2 (ix2 n j)) _ _ j
    (by unfold val_main_v60 val_main_v57 val_main_v59
        exact act_apply _ _ _ _ ((val_main_v56_apply _).trans (val_main_cst_11_apply _)) ((val_main_v58_apply _).trans (val_main_cst_12_apply _)))
    (by rw [val_main_v55_apply]
        refine Finset.sum_congr rfl fun k _ => ?_
        rw [show ridx_main_v55 (ix2 n j) k = ix2 k j from idx2_ext _ _ rfl rfl, w6_apply,
          show lidx_main_v55 (ix2 n j) k = ix2 n k from idx2_ext _ _ rfl rfl])

/-- Slice 6 of the hidden weights, reshaped and transposed, at `(k, j)`. -/
theorem w7_apply (x2 : ArgWm) (j k : Fin 7) : val_main_v63 (F := Ideal) x2 (ix2 k j) = x2 (ix3 6 j k) := by
  rw [val_main_v63_apply, val_main_v62_apply, val_main_v61_apply]
  exact congrArg x2 (idx3_ext _ _ rfl (divmod7 j k).1 (divmod7 j k).2)

/-- Row `n` after hidden layer 6. -/
theorem row7 (x0 : ArgX) (x1 : ArgW0) (x2 : ArgWm) (n : Fin 4000000) :
    (fun j : Fin 7 => val_main_v69 (F := Ideal) x0 x1 x2 (ix2 n j))
      = layer (fun j k => x2 (ix3 6 j k)) (fun k => val_main_v60 (F := Ideal) x0 x1 x2 (ix2 n k)) :=
  funext fun j => layer_of (z := val_main_v64 (F := Ideal) x0 x1 x2 (ix2 n j)) _ _ j
    (by unfold val_main_v69 val_main_v66 val_main_v68
        exact act_apply _ _ _ _ ((val_main_v65_apply _).trans (val_main_cst_13_apply _)) ((val_main_v67_apply _).trans (val_main_cst_14_apply _)))
    (by rw [val_main_v64_apply]
        refine Finset.sum_congr rfl fun k _ => ?_
        rw [show ridx_main_v64 (ix2 n j) k = ix2 k j from idx2_ext _ _ rfl rfl, w7_apply,
          show lidx_main_v64 (ix2 n j) k = ix2 n k from idx2_ext _ _ rfl rfl])

/-- Slice 7 of the hidden weights, reshaped and transposed, at `(k, j)`. -/
theorem w8_apply (x2 : ArgWm) (j k : Fin 7) : val_main_v72 (F := Ideal) x2 (ix2 k j) = x2 (ix3 7 j k) := by
  rw [val_main_v72_apply, val_main_v71_apply, val_main_v70_apply]
  exact congrArg x2 (idx3_ext _ _ rfl (divmod7 j k).1 (divmod7 j k).2)

/-- Row `n` after hidden layer 7. -/
theorem row8 (x0 : ArgX) (x1 : ArgW0) (x2 : ArgWm) (n : Fin 4000000) :
    (fun j : Fin 7 => val_main_v78 (F := Ideal) x0 x1 x2 (ix2 n j))
      = layer (fun j k => x2 (ix3 7 j k)) (fun k => val_main_v69 (F := Ideal) x0 x1 x2 (ix2 n k)) :=
  funext fun j => layer_of (z := val_main_v73 (F := Ideal) x0 x1 x2 (ix2 n j)) _ _ j
    (by unfold val_main_v78 val_main_v75 val_main_v77
        exact act_apply _ _ _ _ ((val_main_v74_apply _).trans (val_main_cst_15_apply _)) ((val_main_v76_apply _).trans (val_main_cst_16_apply _)))
    (by rw [val_main_v73_apply]
        refine Finset.sum_congr rfl fun k _ => ?_
        rw [show ridx_main_v73 (ix2 n j) k = ix2 k j from idx2_ext _ _ rfl rfl, w8_apply,
          show lidx_main_v73 (ix2 n j) k = ix2 n k from idx2_ext _ _ rfl rfl])

/-! ## The last layer and the result -/

/-- The transposed last weights at `(k, j)` are the weights at `(j, k)`. -/
theorem w9_apply (x3 : ArgW9) (j : Fin 1) (k : Fin 7) : val_main_v79 (F := Ideal) x3 (ix2 k j) = x3 (ix2 j k) := by
  rw [val_main_v79_apply]
  exact congrArg x3 (idx2_ext _ _ rfl rfl)

/-- Row `n` of the result (one entry). -/
theorem row9 (x0 : ArgX) (x1 : ArgW0) (x2 : ArgWm) (x3 : ArgW9) (n : Fin 4000000) :
    (fun j : Fin 1 => val_main_v85 (F := Ideal) x0 x1 x2 x3 (ix2 n j))
      = layer (fun j k => x3 (ix2 j k)) (fun k => val_main_v78 (F := Ideal) x0 x1 x2 (ix2 n k)) :=
  funext fun j => layer_of (z := val_main_v80 (F := Ideal) x0 x1 x2 x3 (ix2 n j)) _ _ j
    (by unfold val_main_v85 val_main_v82 val_main_v84
        exact act_apply _ _ _ _ ((val_main_v81_apply _).trans (val_main_cst_17_apply _)) ((val_main_v83_apply _).trans (val_main_cst_18_apply _)))
    (by rw [val_main_v80_apply]
        refine Finset.sum_congr rfl fun k _ => ?_
        rw [show ridx_main_v80 (ix2 n j) k = ix2 k j from idx2_ext _ _ rfl rfl, w9_apply,
          show lidx_main_v80 (ix2 n j) k = ix2 n k from idx2_ext _ _ rfl rfl])

/-- The reference's last stage is `Mlp.out` of the argument arrays: the ten rows above, composed. -/
theorem result_eq (x0 : ArgX) (x1 : ArgW0) (x2 : ArgWm) (x3 : ArgW9) :
    val_main_v85 (F := Ideal) x0 x1 x2 x3 = Mlp.out x0 x1 x2 x3 := by
  funext i
  obtain ⟨n, q, rfl⟩ : ∃ (n : Fin 4000000) (q : Fin 1), i = ix2 n q := ⟨i 0, i 1, eq_ix2 i⟩
  obtain rfl : q = 0 := Subsingleton.elim _ _
  refine (congrFun (row9 x0 x1 x2 x3 n) 0).trans ?_
  rw [row8, row7, row6, row5, row4, row3, row2, row1, row0]
  rfl

end Cert.ReferenceIdeal.RefValue

end
-- ==== Proof.lean ====
/-
  The kernel computes, for every row of a 4000000 × 2 input, a ten-layer network without biases: a 7 × 2 weight matrix,
  eight 7 × 7 ones and a 1 × 7 one, each product followed by the leaky rectifier `z ↦ if z ≥ 0 then z else c · z`
  (`c` the value of one single-precision word, the same word in both programs). It works on the TRANSPOSED input,
  80000 rows at a time as the columns of a 2 × 80000 block, multiplies weights by activations (`W · h`), and
  transposes its 1 × 4000000 result back. The reference keeps the rows as rows and multiplies activations by
  transposed weights (`h · Wᵀ`).

  On the extended reals the two are one function (`Mlp.out`, Proof/Spec.lean): a change of float format is the
  identity, a product accumulated into zero and the host's contraction are the same finite sum, and the two orders of
  each product agree because multiplication of extended reals commutes. No other law is used, so the inputs'
  finiteness is never needed.
    - Proof/KernelPayload.lean: entry `(0, y)` of the block one grid point stores is the network on column `y` of
      the block it loaded.
    - Proof/KernelBlocks.lean: the 50 blocks tile the 1 × 4000000 array, column `80000 t + y` of the transposed input
      is row `80000 t + y` of the input, and the last transpose moves the value to `(n, 0)`.
    - Proof/RefRead.lean, Proof/RefRun.lean: the reference's operations one at a time, and as a list.
    - Proof/RefRunProof.lean: the reference's run, the list cut at the layers.
    - Proof/RefValue.lean: layer by layer, row `n` of the reference's activations is the layer of row `n` before.
  The three frames are the generated ones; the idealization rewrote nothing, so `preserves` is `True`.
-/
import proofs.«173814_j7911329759901_1_alg».proof.Defs
import proofs.«173814_j7911329759901_1_alg».proof.Proof.Gen.Kernel
import proofs.«173814_j7911329759901_1_alg».proof.Proof.Gen.Kernel.Skeleton
import proofs.«173814_j7911329759901_1_alg».proof.Proof.Gen.Kernel.Launch
import proofs.«173814_j7911329759901_1_alg».proof.Proof.Gen.Kernel.Points
import proofs.«173814_j7911329759901_1_alg».proof.Proof.Gen.Kernel.Frame
import proofs.«173814_j7911329759901_1_alg».proof.Proof.Gen.KernelIdeal
import proofs.«173814_j7911329759901_1_alg».proof.Proof.Gen.KernelIdeal.Skeleton
import proofs.«173814_j7911329759901_1_alg».proof.Proof.Gen.KernelIdeal.Launch
import proofs.«173814_j7911329759901_1_alg».proof.Proof.Gen.KernelIdeal.Points
import proofs.«173814_j7911329759901_1_alg».proof.Proof.Gen.KernelIdeal.Frame
import proofs.«173814_j7911329759901_1_alg».proof.Proof.Gen.ReferenceIdeal
import proofs.«173814_j7911329759901_1_alg».proof.Proof.Gen.Pre_finite_inputs
import proofs.«173814_j7911329759901_1_alg».proof.Proof.KernelBlocks
import proofs.«173814_j7911329759901_1_alg».proof.Proof.RefRunProof
import proofs.«173814_j7911329759901_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRunProof.run (F := Ideal) m ρ)

/-- The idealization rewrote no operation. -/
theorem preserves : Cert.preserves_Kernel_KernelIdeal := trivial

/-- Both programs end with `Mlp.out` of the argument arrays in their result buffer; the arrays agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRunProof.run (F := Ideal) m' ρ')
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
